-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : IVec S1600000 32) (main_arg3 : IVec S1600000 32) (main_arg4 : FVec F S128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩

abbrev nBuf : Space → Nat
  | .hbm => 84
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S1600000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v60) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S1600000x1, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with its result named. The program is four segments — host operations, the first dense
  kernel, host operations, the second dense kernel — and the buffer contents at each boundary are a fold from the launch
  memory. Every weakly fair execution terminates without a fault, and at the end every unscoped buffer holds the last
  boundary's contents: the six arguments what they held at launch, and the result buffer what the second kernel's 20
  write-backs leave in its output array.
-/
import proofs.«141787_j5901285065199_1_alg».proof.Proof.Gen.KernelIdeal.Frame

set_option maxRecDepth 16384

noncomputable section

namespace Cert.Layers.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the second kernel's output array after its last point. -/
theorem result_is_output (c : Dev nD) :
    W4 m ρ c (Proc.devRef .tc main_v61) = (dat1 (V3 m ρ) c).arrAt 2 cfg1.N :=
  W4_arr m ρ c 2

/-- The first kernel's output buffer at its exit is its output array after its last point. -/
theorem hidden_is_output (c : Dev nD) :
    W2 m ρ c (Proc.devRef .tc main_v30) = (dat0 (V1 m ρ) c).arrAt 2 cfg0.N :=
  W2_arr m ρ c 2

set_option backward.isDefEq.respectTransparency.types false in
/-- Every weakly fair execution of the program from a memory with zero counters terminates, nothing faulting, with
    the result buffer at the last boundary's contents and the six arguments as launched. -/
theorem run : θ_run defs (onTc (τ := τ) (main (F := F))) ⟨m, fun _ => 0, ρ⟩ (fun r => ∀ c : Dev nD,
      r.2.mem ((c.tc : Thread nD τ).loc main_v61) = W4 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost element, and nothing per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core starts holding its unscoped buffers at the launch contents, its generator register, and owing nothing
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state read against the final memory
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v61 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Layers.Run

end
-- ==== Proof.DenseBlock.lean ====
/-
  What a dense layer's kernel body computes on one block of 5000 rows: the block times the 128×128 weight matrix,

      (X W)[p, q] = Σ_k X[p, k] · W[k, q],

  the product accumulated from zero, the operands' narrowing to bf16 the identity on exact values, and the shape cast of
  the block to its own shape the identity too. The first layer's body then takes the maximum with zero (the rectifier);
  the second layer's body stores the product as it is.
-/
import proofs.«141787_j5901285065199_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Layers.Block

open Idealize.ShloMosaic Idealize.ShloMosaic.ValueIdx Cert.KernelIdeal

/-- The row coordinate of the left operand's entry is the output's row; -/
theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- its column coordinate is the summation index, -/
theorem lhs_col (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- which is also the row coordinate of the right operand's entry, -/
theorem rhs_row (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- whose column coordinate is the output's column. -/
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of rows times a matrix, accumulated from zero, at row `p` and column `q`: the sum over the 128 inner
    indices of the products. -/
theorem rows_times_matrix {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The second layer's body stores the block times the weights. -/
theorem linear_at (x : Vec Ideal S5000x128 .f32) (w : Vec Ideal S128x128 .f32) (p : Fin 5000) (q : Fin 128) :
    Gen.k1_pay1 (F := Ideal) x w (ix2 p q) = ∑ k : Fin 128, x (ix2 p k) * w (ix2 k q) := by
  unfold Gen.k1_pay1
  refine (rows_times_matrix _ _ p q).trans ?_
  refine Finset.sum_congr rfl fun k _ => ?_
  rw [truncf_apply, truncf_apply, shapeCast_self]

/-- The first layer's body stores the rectified product: its maximum with zero. -/
theorem rectified_at (x : Vec Ideal S5000x128 .f32) (w : Vec Ideal S128x128 .f32) (p : Fin 5000) (q : Fin 128) :
    Gen.k0_pay1 (F := Ideal) x w (ix2 p q) = max (∑ k : Fin 128, x (ix2 p k) * w (ix2 k q)) 0 := by
  unfold Gen.k0_pay1
  refine (maximumf_apply _ _ (ix2 p q)).trans ?_
  refine congrArg₂ max ((rows_times_matrix _ _ p q).trans ?_) Ideal.ofBits_zero_f32
  refine Finset.sum_congr rfl fun k _ => ?_
  rw [truncf_apply, truncf_apply, shapeCast_self]

end Cert.Layers.Block

end
-- ==== Proof.Propagate.lean ====
/-
  One sparse propagation step of a graph with 100000 nodes and 1600000 weighted edges, on node features of width 128:

      (A h)[n, f] = ( Σ over the edges e whose target row is n of  w[e] · h[src[e], f] ) · 1

  where a negative source index counts from the end (src + 100000), the gather of the source rows and the scatter-add
  into the target rows are the host's own operations, and the trailing product is with the constant one. Both programs
  of this certificate apply this very chain of host operations four times; it is stated here ONCE, as a function of the
  edge weights, the two index vectors and the features, over the two index records and the four shape facts a program
  states. The chain is never opened: all that is used of it is that equal records give the same function.
-/
import Idealize.ShloMosaic.PureOps.Ideal
import Idealize.ShloMosaic.Lib.ValueIdx

noncomputable section

namespace Cert.Layers

open Idealize.ShloMosaic

/-- Node features: one row of 128 entries per node. -/
abbrev Nodes : Shape := ⟨2, ![100000, 128]⟩
/-- One entry per edge. -/
abbrev Edges : Shape := ⟨1, ![1600000]⟩
/-- The same as a column. -/
abbrev EdgeCol : Shape := ⟨2, ![1600000, 1]⟩
/-- One row of 128 entries per edge. -/
abbrev EdgeRows : Shape := ⟨2, ![1600000, 128]⟩
/-- A square weight matrix. -/
abbrev Square : Shape := ⟨2, ![128, 128]⟩
/-- A scalar. -/
abbrev Point : Shape := ⟨0, ![]⟩

/-- What a program states about the shapes of one propagation step: how a source row is gathered per edge, how an edge's
    row is added into its target row, and the four broadcasts in between. -/
structure Layout where
  rowsOf : GatherDims Nodes EdgeCol EdgeRows
  intoRows : ScatterDims Nodes EdgeCol EdgeRows
  asColumn : Edges.BroadcastsInDim EdgeCol (![0] : Fin 1 → Fin EdgeCol.rank)
  perEdge : Point.BroadcastsInDim Edges (![] : Fin 0 → Fin Edges.rank)
  alongRow : EdgeCol.BroadcastsInDim EdgeRows (![0, 1] : Fin 2 → Fin EdgeRows.rank)
  perEntry : Point.BroadcastsInDim Nodes (![] : Fin 0 → Fin Nodes.rank)

variable {F : FTy → Type} [FloatOps F]

/-- The source node of every edge, a negative index read from the end. -/
def sources (L : Layout) (src : IVec Edges 32) : IVec EdgeCol 32 :=
  broadcastInDim EdgeCol ![0] L.asColumn
    (select (cmpi .slt src (broadcastInDim Edges ![] L.perEdge (constantI Point 32 0#32)))
      (addi src (broadcastInDim Edges ![] L.perEdge (constantI Point 32 100000#32))) src)

/-- One propagation step: gather the source rows, scale each by its edge's weight, add them into the target rows of a
    zero array, and multiply by one. -/
def propagate (L : Layout) (w : FVec F Edges .f32) (dst src : IVec Edges 32) (h : FVec F Nodes .f32) : FVec F Nodes .f32 :=
  mulf
    (Host.scatterAdd L.intoRows
      (broadcastInDim Nodes ![] L.perEntry (constant Point .f32 0x00000000#32))
      (broadcastInDim EdgeCol ![0] L.asColumn dst)
      (mulf (broadcastInDim EdgeRows ![0, 1] L.alongRow (broadcastInDim EdgeCol ![0] L.asColumn w))
        (Host.gather L.rowsOf h (sources L src))))
    (broadcastInDim Nodes ![] L.perEntry (constant Point .f32 0x3F800000#32))

/-- The step depends on a layout only through its two index records: the shape facts are propositions. -/
theorem propagate_congr (L L' : Layout) (hg : L.rowsOf = L'.rowsOf) (hs : L.intoRows = L'.intoRows) :
    propagate (F := F) L = propagate (F := F) L' := by
  cases L; cases L'
  cases hg; cases hs
  rfl

end Cert.Layers

end
-- ==== Proof.Layers.lean ====
/-
  The two-layer network both programs compute, as one function of the six arguments:

      out = A(A( relu( A(A x) · W1 ) )) · W2

  with A one sparse propagation step (Propagate.lean), `·` the product of a 100000×128 feature array with a 128×128
  weight matrix, (h W)[n, j] = Σ_k h[n, k] · W[k, j], and relu the maximum with zero, entry by entry.
-/
import proofs.«141787_j5901285065199_1_alg».proof.Proof.Propagate

noncomputable section

namespace Cert.Layers

open Idealize.ShloMosaic Idealize.ShloMosaic.ValueIdx

/-- The node (row) an entry of the feature array belongs to, -/
abbrev node (i : Nodes.Idx) : Fin 100000 := ⟨(i 0).val, (i 0).isLt⟩
/-- and its feature (column). -/
abbrev feature (i : Nodes.Idx) : Fin 128 := ⟨(i 1).val, (i 1).isLt⟩

/-- Features times a square weight matrix: entry (n, j) is the sum over k of h[n, k] · W[k, j]. -/
def dense (h : FVec Ideal Nodes .f32) (W : FVec Ideal Square .f32) : FVec Ideal Nodes .f32 :=
  fun i => ∑ k : Fin 128, h (ix2 (node i) k) * W (ix2 k (feature i))

/-- The rectifier: each entry's maximum with zero. -/
def rectify (h : FVec Ideal Nodes .f32) : FVec Ideal Nodes .f32 := fun i => max (h i) 0

/-- The whole network: two propagation steps, a rectified dense layer, two more steps, a dense layer. -/
def twoLayers (L : Layout) (x : FVec Ideal Nodes .f32) (w : FVec Ideal Edges .f32) (dst src : IVec Edges 32)
    (W1 W2 : FVec Ideal Square .f32) : FVec Ideal Nodes .f32 :=
  dense (propagate L w dst src (propagate L w dst src
    (rectify (dense (propagate L w dst src (propagate L w dst src x)) W1)))) W2

/-- The network depends on a layout only through its two index records. -/
theorem twoLayers_congr (L L' : Layout) (hg : L.rowsOf = L'.rowsOf) (hs : L.intoRows = L'.intoRows) :
    twoLayers L = twoLayers L' := by
  unfold twoLayers
  rw [propagate_congr L L' hg hs]

end Cert.Layers

end
-- ==== Proof.RowBlocks.lean ====
/-
  From blocks to the array. Each dense layer's kernel runs over 20 grid points; point t reads rows 5000·t … 5000·t + 4999
  of its feature array and the whole weight matrix, and writes back the same rows of its output array. Row r of the
  output therefore lies in the block of point r / 5000, the 20 blocks tile the array, and after the last point the output
  array holds, entry by entry, the features times the weights (rectified, in the first layer) of the two arrays the
  kernel was entered with — whatever those arrays are: everything here is stated for arbitrary entry contents `V`.
-/
import proofs.«141787_j5901285065199_1_alg».proof.Proof.Gen.KernelIdeal.Frame
import proofs.«141787_j5901285065199_1_alg».proof.Proof.DenseBlock
import proofs.«141787_j5901285065199_1_alg».proof.Proof.Layers
import Idealize.ShloMosaic.Lib.Pipeline.Value

set_option maxRecDepth 16384

noncomputable section

namespace Cert.Layers.Rows

open Idealize.ShloMosaic Idealize.ShloMosaic.TcCoe Idealize.ShloMosaic.ValueIdx Idealize.SL.Sem
open Idealize.ShloMosaic.Pipeline (Dat)
open Cert.KernelIdeal Cert.KernelIdeal.Gen

/-- A block is loaded and stored from its first row and column. -/
theorem origin : (![0, 0] : Fin 2 → Nat) = fun _ => 0 := funext fun a => by fin_cases a <;> rfl

/-! ## One entry of a block, from the arrays the block's rows come from -/

/-- If row `p` of the loaded block is row `node i` of the features `a`, and column `q` of the loaded weights is column
    `feature i` of `W`, the first layer's body stores at (p, q) the rectified product's entry `i`. -/
theorem rectified_entry (a : FVec Ideal Nodes .f32) (W : FVec Ideal Square .f32)
    (x : Vec Ideal S5000x128 .f32) (w : Vec Ideal S128x128 .f32) (i : Nodes.Idx) (p : Fin 5000) (q : Fin 128)
    (hx : ∀ k : Fin 128, x (ix2 p k) = a (ix2 (node i) k)) (hw : ∀ k : Fin 128, w (ix2 k q) = W (ix2 k (feature i))) :
    k0_pay1 (F := Ideal) x w (ix2 p q) = rectify (dense a W) i := by
  rw [Block.rectified_at]
  show max _ 0 = max (∑ k : Fin 128, a (ix2 (node i) k) * W (ix2 k (feature i))) 0
  exact congrArg (max · 0) (Finset.sum_congr rfl fun k _ => by rw [hx k, hw k])

/-- The same for the second layer's body, which stores the product itself. -/
theorem linear_entry (a : FVec Ideal Nodes .f32) (W : FVec Ideal Square .f32)
    (x : Vec Ideal S5000x128 .f32) (w : Vec Ideal S128x128 .f32) (i : Nodes.Idx) (p : Fin 5000) (q : Fin 128)
    (hx : ∀ k : Fin 128, x (ix2 p k) = a (ix2 (node i) k)) (hw : ∀ k : Fin 128, w (ix2 k q) = W (ix2 k (feature i))) :
    k1_pay1 (F := Ideal) x w (ix2 p q) = dense a W i := by
  rw [Block.linear_at]
  show _ = ∑ k : Fin 128, a (ix2 (node i) k) * W (ix2 k (feature i))
  exact Finset.sum_congr rfl fun k _ => by rw [hx k, hw k]

variable (V : (c : Dev nD) → (b : Ref sig .tc) → Buf (Elt Ideal) ((c : Thread nD τ).loc b))

/-! ## The first layer's kernel -/

/-- Over the grid: the feature block and the output block of a point are the same rows (block column 0), the weights'
    block is always the whole matrix, and the block row is one of the 20. -/
theorem blocks0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every one of the 20 block rows is some point's. -/
theorem row_block0 : ∀ r : Fin 20, ∃ t : Fin cfg0.N, win0_2.index t = ![r.val, 0] :=
  (by decide +kernel : ∀ r : Fin 20, ∃ t : Fin grid0.N, win0_2.index t = ![r.val, 0])

/-- What point `t` writes back is block `t` of the rectified product of the two arrays the kernel was entered with. -/
theorem flushed0 (c : Dev nD) (t : Fin cfg0.N) :
    (dat0 V c).flushed 2 t
      = ((cfg0.win 2).blk t).view.read (Elt Ideal) (rectify (dense (V c main_v29) (V c main_arg4))) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = rectify (dense (V c main_v29) (V c main_arg4)) (((cfg0.win 2).blk t).view.emb (ix2 p q))
  obtain ⟨e0, e1, e2, e3, e4, e5⟩ := blocks0 t
  refine rectified_entry (V c main_v29) (V c main_arg4) (iblk0 V c 0 t) (iblk0 V c 1 t)
    (((cfg0.win 2).blk t).view.emb (ix2 p q)) p q (fun k => ?_) (fun k => ?_)
  · -- row p of the feature block is row 5000·t + p of the features
    show V c main_v29 (((cfg0.win 0).blk t).view.emb (ix2 p k)) = _
    refine congrArg (V c main_v29) ?_
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  · -- the weights' block is the matrix
    show V c main_arg4 (((cfg0.win 1).blk t).view.emb (ix2 k q)) = _
    refine congrArg (V c main_arg4) ?_
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An entry is in point `t`'s output block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every entry is written back by some point: row r by the point whose block row is r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := row_block0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After its 20 points the first layer's output array is the rectified product of its two entry arrays. -/
theorem array0 (c : Dev nD) :
    (dat0 V c).arrAt 2 cfg0.N = rectify (dense (V c main_v29) (V c main_arg4)) :=
  (dat0 V c).arrAt_eq_of_cover 2 _ (fun t _ => flushed0 V c t) covered0

/-! ## The second layer's kernel -/

/-- Over the grid, as for the first layer. -/
theorem blocks1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every one of the 20 block rows is some point's. -/
theorem row_block1 : ∀ r : Fin 20, ∃ t : Fin cfg1.N, win1_2.index t = ![r.val, 0] :=
  (by decide +kernel : ∀ r : Fin 20, ∃ t : Fin grid1.N, win1_2.index t = ![r.val, 0])

/-- What point `t` writes back is block `t` of the product of the two arrays the kernel was entered with. -/
theorem flushed1 (c : Dev nD) (t : Fin cfg1.N) :
    (dat1 V c).flushed 2 t
      = ((cfg1.win 2).blk t).view.read (Elt Ideal) (dense (V c main_v60) (V c main_arg5)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = dense (V c main_v60) (V c main_arg5) (((cfg1.win 2).blk t).view.emb (ix2 p q))
  obtain ⟨e0, e1, e2, e3, e4, e5⟩ := blocks1 t
  refine linear_entry (V c main_v60) (V c main_arg5) (iblk1 V c 0 t) (iblk1 V c 1 t)
    (((cfg1.win 2).blk t).view.emb (ix2 p q)) p q (fun k => ?_) (fun k => ?_)
  · show V c main_v60 (((cfg1.win 0).blk t).view.emb (ix2 p k)) = _
    refine congrArg (V c main_v60) ?_
    funext a; apply Fin.ext
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * k.val = k.val
      omega
  · show V c main_arg5 (((cfg1.win 1).blk t).view.emb (ix2 k q)) = _
    refine congrArg (V c main_arg5) ?_
    funext a; apply Fin.ext
    match a with
    | ⟨0, _⟩ =>
      show win1_1.index t (0 : Fin 2) * 128 + 1 * k.val = k.val
      omega
    | ⟨1, _⟩ =>
      show win1_1.index t (1 : Fin 2) * 128 + 1 * q.val = win1_2.index t (1 : Fin 2) * 128 + 1 * q.val
      omega

/-- An entry is in point `t`'s output block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v61).slice (win1_2.rect t)).set ↔ _
  rw [View.set_slice_whole, Rect.mem_set_unit]
  exact Iff.rfl

/-- Every entry is written back by some point. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := row_block1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After its 20 points the second layer's output array is the product of its two entry arrays. -/
theorem array1 (c : Dev nD) :
    (dat1 V c).arrAt 2 cfg1.N = dense (V c main_v60) (V c main_arg5) :=
  (dat1 V c).arrAt_eq_of_cover 2 _ (fun t _ => flushed1 V c t) covered1

end Cert.Layers.Rows

end
-- ==== Proof.HostStretches.lean ====
/-
  The host operations around the two dense kernels. Each of the two stretches (before the first kernel; between the two)
  is, from whatever the buffers hold when it starts, two propagation steps (Propagate.lean) of one feature array — the
  first argument for the first stretch, the first kernel's output for the second — with the edge weights and the two
  index vectors read at their argument buffers; and neither stretch writes an argument buffer.
-/
import proofs.«141787_j5901285065199_1_alg».proof.Proof.Gen.KernelIdeal.Launch
import proofs.«141787_j5901285065199_1_alg».proof.Proof.Layers
import Idealize.ShloMosaic.Lib.StableHlo.Run

set_option maxRecDepth 16384

noncomputable section

namespace Cert.Layers.Host

open Idealize.ShloMosaic Idealize.ShloMosaic.TcCoe Idealize.SL.Sem Idealize.ShloMosaic.StableHlo
open Cert.KernelIdeal Cert.KernelIdeal.Gen

/-- The kernel program's shapes of a propagation step. -/
def layout : Layout where
  rowsOf := gather_S100000x128_S1600000x1_S1600000x128_1_0_n_n_0_1_1128
  intoRows := scatter_S100000x128_S1600000x1_S1600000x128_1_0_0_1
  asColumn := Facts₀.bcast_S1600000_S1600000x1_0
  perEdge := Facts₀.bcast_S_S1600000
  alongRow := Facts₀.bcast_S1600000x1_S1600000x128_0_1
  perEntry := Facts₀.bcast_S_S100000x128

variable (W : Valuation τ sig (Elt Ideal))

/-- The first stretch leaves in the first kernel's feature buffer two propagation steps of the first argument. -/
theorem before_first :
    after (hostOps0 (F := Ideal)) W (Proc.devRef .tc main_v29)
      = propagate (F := Ideal) layout (W (Proc.devRef .tc main_arg1)) (W (Proc.devRef .tc main_arg2)) (W (Proc.devRef .tc main_arg3))
          (propagate (F := Ideal) layout (W (Proc.devRef .tc main_arg1)) (W (Proc.devRef .tc main_arg2)) (W (Proc.devRef .tc main_arg3))
            (W (Proc.devRef .tc main_arg0))) := by
  after_results_simp
  rfl

/-- The second stretch leaves in the second kernel's feature buffer two propagation steps of the first kernel's output. -/
theorem before_second :
    after (hostOps1 (F := Ideal)) W (Proc.devRef .tc main_v60)
      = propagate (F := Ideal) layout (W (Proc.devRef .tc main_arg1)) (W (Proc.devRef .tc main_arg2)) (W (Proc.devRef .tc main_arg3))
          (propagate (F := Ideal) layout (W (Proc.devRef .tc main_arg1)) (W (Proc.devRef .tc main_arg2)) (W (Proc.devRef .tc main_arg3))
            (W (Proc.devRef .tc main_v30))) := by
  after_results_simp
  rfl

/-- The first stretch writes none of the edge weights, the index vectors and the weight matrices. -/
theorem first_keeps_arg1 : after (hostOps0 (F := Ideal)) W (Proc.devRef .tc main_arg1) = W (Proc.devRef .tc main_arg1) := by
  after_results_simp
theorem first_keeps_arg2 : after (hostOps0 (F := Ideal)) W (Proc.devRef .tc main_arg2) = W (Proc.devRef .tc main_arg2) := by
  after_results_simp
theorem first_keeps_arg3 : after (hostOps0 (F := Ideal)) W (Proc.devRef .tc main_arg3) = W (Proc.devRef .tc main_arg3) := by
  after_results_simp
theorem first_keeps_arg4 : after (hostOps0 (F := Ideal)) W (Proc.devRef .tc main_arg4) = W (Proc.devRef .tc main_arg4) := by
  after_results_simp
theorem first_keeps_arg5 : after (hostOps0 (F := Ideal)) W (Proc.devRef .tc main_arg5) = W (Proc.devRef .tc main_arg5) := by
  after_results_simp
/-- Nor does the second stretch write the second weight matrix. -/
theorem second_keeps_arg5 : after (hostOps1 (F := Ideal)) W (Proc.devRef .tc main_arg5) = W (Proc.devRef .tc main_arg5) := by
  after_results_simp

end Cert.Layers.Host

end
-- ==== Proof.KernelValue.lean ====
/-
  What the kernel program's result buffer holds at the end: the two-layer network (Layers.lean) of the six arguments.
  Read backwards through the four segments: the result is the second dense kernel's output, the product with W2 of its
  feature array; that array is two propagation steps of the first kernel's output; the first kernel's output is the
  rectified product with W1 of its own feature array; and that one is two propagation steps of the first argument. The
  edge weights, the index vectors and the two weight matrices are read at every stage where they were at launch, since
  no segment writes them.
-/
import proofs.«141787_j5901285065199_1_alg».proof.Proof.KernelRun
import proofs.«141787_j5901285065199_1_alg».proof.Proof.RowBlocks
import proofs.«141787_j5901285065199_1_alg».proof.Proof.HostStretches

set_option maxRecDepth 16384

noncomputable section

namespace Cert.Layers.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first kernel is entered with two propagation steps of the first argument as its features -/
theorem first_features :
    V1 m ρ c main_v29
      = propagate (F := Ideal) Host.layout (m ((c.tc : Thread nD τ).loc main_arg1)) (m ((c.tc : Thread nD τ).loc main_arg2))
          (m ((c.tc : Thread nD τ).loc main_arg3))
          (propagate (F := Ideal) Host.layout (m ((c.tc : Thread nD τ).loc main_arg1)) (m ((c.tc : Thread nD τ).loc main_arg2))
            (m ((c.tc : Thread nD τ).loc main_arg3)) (m ((c.tc : Thread nD τ).loc main_arg0))) :=
  Host.before_first (W0 m ρ c)

/-- and the first weight matrix as launched. -/
theorem first_weights : V1 m ρ c main_arg4 = m ((c.tc : Thread nD τ).loc main_arg4) :=
  Host.first_keeps_arg4 (W0 m ρ c)

/-- At the first kernel's exit its output buffer holds the rectified product of those two. -/
theorem hidden :
    W2 m ρ c (Proc.devRef .tc main_v30) = rectify (dense (V1 m ρ c main_v29) (V1 m ρ c main_arg4)) :=
  (Run.hidden_is_output m ρ c).trans (Rows.array0 (V1 m ρ) c)

/-- At the first kernel's exit the edge weights, the index vectors and the second weight matrix are as launched:
    the kernel's windows do not include them, and the host operations before it write none of them. -/
theorem between_arg1 : W2 m ρ c (Proc.devRef .tc main_arg1) = m ((c.tc : Thread nD τ).loc main_arg1) :=
  (W2_of_ne m ρ c main_arg1 (by decide)).trans (Host.first_keeps_arg1 (W0 m ρ c))
theorem between_arg2 : W2 m ρ c (Proc.devRef .tc main_arg2) = m ((c.tc : Thread nD τ).loc main_arg2) :=
  (W2_of_ne m ρ c main_arg2 (by decide)).trans (Host.first_keeps_arg2 (W0 m ρ c))
theorem between_arg3 : W2 m ρ c (Proc.devRef .tc main_arg3) = m ((c.tc : Thread nD τ).loc main_arg3) :=
  (W2_of_ne m ρ c main_arg3 (by decide)).trans (Host.first_keeps_arg3 (W0 m ρ c))
theorem between_arg5 : W2 m ρ c (Proc.devRef .tc main_arg5) = m ((c.tc : Thread nD τ).loc main_arg5) :=
  (W2_of_ne m ρ c main_arg5 (by decide)).trans (Host.first_keeps_arg5 (W0 m ρ c))

/-- The second kernel is entered with two propagation steps of the first kernel's output as its features -/
theorem second_features :
    V3 m ρ c main_v60
      = propagate (F := Ideal) Host.layout (W2 m ρ c (Proc.devRef .tc main_arg1)) (W2 m ρ c (Proc.devRef .tc main_arg2))
          (W2 m ρ c (Proc.devRef .tc main_arg3))
          (propagate (F := Ideal) Host.layout (W2 m ρ c (Proc.devRef .tc main_arg1)) (W2 m ρ c (Proc.devRef .tc main_arg2))
            (W2 m ρ c (Proc.devRef .tc main_arg3)) (W2 m ρ c (Proc.devRef .tc main_v30))) :=
  Host.before_second (W2 m ρ c)

/-- and the second weight matrix as it was at the first kernel's exit. -/
theorem second_weights : V3 m ρ c main_arg5 = W2 m ρ c (Proc.devRef .tc main_arg5) :=
  Host.second_keeps_arg5 (W2 m ρ c)

/-- The result buffer ends holding the network of the six arguments' launch contents. -/
theorem result :
    W4 m ρ c (Proc.devRef .tc main_v61)
      = twoLayers Host.layout (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [Run.result_is_output, Rows.array1 (V3 m ρ) c, second_features, second_weights,
    between_arg1, between_arg2, between_arg3, between_arg5, hidden, first_features, first_weights]
  rfl

end Cert.Layers.Kernel

end
-- ==== Proof.RefLayers.lean ====
/-
  The reference program computes the two-layer network (Layers.lean): each of its four chains of host operations is one
  propagation step of the value before it, each of its two `dot_general`s the product with a weight matrix, and its
  call of relu the maximum with the broadcast zero.
-/
import proofs.«141787_j5901285065199_1_alg».proof.Proof.Gen.ReferenceIdeal.Read
import proofs.«141787_j5901285065199_1_alg».proof.Proof.Layers

noncomputable section

namespace Cert.Layers.Ref

open Idealize.ShloMosaic Idealize.ShloMosaic.ValueIdx Idealize.SL.Sem
open Cert.ReferenceIdeal Cert.ReferenceIdeal.Gen Cert.ReferenceIdeal.Read

/-- The reference's shapes of a propagation step. -/
def layout : Layout where
  rowsOf := gather_S100000x128_S1600000x1_S1600000x128_1_0_n_n_0_1_1128
  intoRows := scatter_S100000x128_S1600000x1_S1600000x128_1_0_0_1
  asColumn := bcast_S1600000_S1600000x1_0
  perEdge := bcast_S_S1600000
  alongRow := bcast_S1600000x1_S1600000x128_0_1
  perEntry := bcast_S_S100000x128

variable (x : FVec Ideal Nodes .f32) (w : FVec Ideal Edges .f32) (dst src : IVec Edges 32) (W1 W2 : FVec Ideal Square .f32)

/-- The first chain is a propagation step of the features, -/
theorem step1 : val_main_v14 (F := Ideal) x w dst src = propagate layout w dst src x := rfl
/-- the second a step of the first's result, -/
theorem step2 : val_main_v29 (F := Ideal) x w dst src = propagate layout w dst src (val_main_v14 (F := Ideal) x w dst src) := rfl
/-- the third a step of the rectified first layer, -/
theorem step3 : val_main_v46 (F := Ideal) x w dst src W1 = propagate layout w dst src (val_main_v31 (F := Ideal) x w dst src W1) := rfl
/-- and the fourth a step of the third's result. -/
theorem step4 : val_main_v61 (F := Ideal) x w dst src W1 = propagate layout w dst src (val_main_v46 (F := Ideal) x w dst src W1) := rfl

/-- The first `dot_general` is the product with the first weight matrix. -/
theorem layer1 : val_main_v30 (F := Ideal) x w dst src W1 = dense (val_main_v29 (F := Ideal) x w dst src) W1 := by
  funext i
  rw [val_main_v30_apply]
  refine Finset.sum_congr rfl fun k _ => ?_
  have el : lidx_main_v30 i k = ix2 (node i) k := funext fun a => by match a with | ⟨0, _⟩ => rfl | ⟨1, _⟩ => rfl
  have er : ridx_main_v30 i k = ix2 k (feature i) := funext fun a => by match a with | ⟨0, _⟩ => rfl | ⟨1, _⟩ => rfl
  rw [el, er]

/-- The call of relu is the rectifier. -/
theorem relu1 : val_main_v31 (F := Ideal) x w dst src W1 = rectify (val_main_v30 (F := Ideal) x w dst src W1) := by
  funext i
  rw [val_main_v31_apply, val_main_call0_v0_apply, val_main_call0_cst_apply]
  exact congrArg (max _) Ideal.ofBits_zero_f32

/-- The second `dot_general` is the product with the second weight matrix. -/
theorem layer2 : val_main_v62 (F := Ideal) x w dst src W1 W2 = dense (val_main_v61 (F := Ideal) x w dst src W1) W2 := by
  funext i
  rw [val_main_v62_apply]
  refine Finset.sum_congr rfl fun k _ => ?_
  have el : lidx_main_v62 i k = ix2 (node i) k := funext fun a => by match a with | ⟨0, _⟩ => rfl | ⟨1, _⟩ => rfl
  have er : ridx_main_v62 i k = ix2 k (feature i) := funext fun a => by match a with | ⟨0, _⟩ => rfl | ⟨1, _⟩ => rfl
  rw [el, er]

/-- The reference's last stage is the network of its arguments. -/
theorem network : val_main_v62 (F := Ideal) x w dst src W1 W2 = twoLayers layout x w dst src W1 W2 := by
  rw [layer2, step4, step3, relu1, layer1, step2, step1]
  rfl

/-- The reference run's result is the network of the launch contents of the six arguments. -/
theorem result (m : (ℓ : Loc nD τ sig) → Buf (Elt Ideal) ℓ) (c : Dev nD) :
    Cert.ReferenceIdeal.Value.res_out0 (F := Ideal) m c
      = twoLayers layout (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v62_eq m c).trans (network _ _ _ _ _ _)

end Cert.Layers.Ref

end
-- ==== Proof.lean ====
/-
  A two-layer graph network on 100000 nodes with 1600000 weighted edges and features of width 128:

      out = A(A( relu( A(A x) · W1 ) )) · W2,

  A one sparse propagation step (gather the source rows, scale by the edge weights, add into the target rows), `·` the
  product of the feature array with a 128×128 weight matrix, relu the maximum with zero.

  The kernel program computes the four propagation steps by the same host operations as the reference, and each of the
  two dense layers by a kernel that walks the feature array in 20 blocks of 5000 rows, multiplying each block by the
  whole weight matrix from a zero accumulator (the operands' narrowing to bf16 is the identity on exact values) and, in
  the first layer, taking the maximum with zero. The reference computes each dense layer by one `dot_general` and the
  rectifier by a maximum with a broadcast zero. On the extended reals both are the same sums of the same products, entry
  by entry: no entry of either program is rearranged, so the equality needs nothing of the inputs, not even finiteness.

  Proof/Propagate.lean     the propagation step as one function, never opened
  Proof/Layers.lean        the network as one function of the six arguments
  Proof/RefLayers.lean     the reference's run ends at the network
  Proof/DenseBlock.lean    what a dense kernel's body stores at one entry of a block
  Proof/RowBlocks.lean     the 20 blocks tile the array: a dense kernel's output array from its entry arrays
  Proof/HostStretches.lean what the host operations around the kernels leave
  Proof/KernelRun.lean     the kernel program's run with its result named
  Proof/KernelValue.lean   the kernel program's result is the network
-/
import proofs.«141787_j5901285065199_1_alg».proof.Defs
import proofs.«141787_j5901285065199_1_alg».proof.Proof.Gen.Kernel
import proofs.«141787_j5901285065199_1_alg».proof.Proof.Gen.Kernel.Skeleton
import proofs.«141787_j5901285065199_1_alg».proof.Proof.Gen.Kernel.Launch
import proofs.«141787_j5901285065199_1_alg».proof.Proof.Gen.Kernel.Points
import proofs.«141787_j5901285065199_1_alg».proof.Proof.Gen.Kernel.Frame
import proofs.«141787_j5901285065199_1_alg».proof.Proof.Gen.KernelIdeal
import proofs.«141787_j5901285065199_1_alg».proof.Proof.Gen.KernelIdeal.Skeleton
import proofs.«141787_j5901285065199_1_alg».proof.Proof.Gen.KernelIdeal.Launch
import proofs.«141787_j5901285065199_1_alg».proof.Proof.Gen.KernelIdeal.Points
import proofs.«141787_j5901285065199_1_alg».proof.Proof.Gen.KernelIdeal.Frame
import proofs.«141787_j5901285065199_1_alg».proof.Proof.Gen.ReferenceIdeal
import proofs.«141787_j5901285065199_1_alg».proof.Proof.Gen.ReferenceIdeal.Run
import proofs.«141787_j5901285065199_1_alg».proof.Proof.Gen.ReferenceIdeal.Read
import proofs.«141787_j5901285065199_1_alg».proof.Proof.Gen.Pre_finite_inputs
import proofs.«141787_j5901285065199_1_alg».proof.Proof.KernelValue
import proofs.«141787_j5901285065199_1_alg».proof.Proof.RefLayers
import Idealize.ShloMosaic.Adequacy
import Idealize.ShloMosaic.Init

noncomputable section

namespace Cert.Proof

open Idealize.ShloMosaic Idealize.SL.Sem Cert.Layers

/-- The kernel program as printed runs, and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs gather a source row per edge the same way, -/
theorem same_gather : Host.layout.rowsOf = Ref.layout.rowsOf := rfl
/-- and add an edge's row into its target row the same way. -/
theorem same_scatter : Host.layout.intoRows = Ref.layout.intoRows := rfl

/-- From memories agreeing on the six arguments both programs end with the network of those arguments in their result
    buffers: the kernel program by reading its four segments backwards (Proof/KernelValue.lean), the reference by its
    stages (Proof/RefLayers.lean); the two propagation steps are one function because the index records agree. -/
theorem algebraic : Cert.algebraic_KernelIdeal_ReferenceIdeal := by
  intro m ρ m' ρ' _ hagree
  refine ⟨fun c => twoLayers Host.layout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c => ⟨(h c).1.trans (Kernel.result m ρ c), (h c).2⟩)
      (Run.run (F := Ideal) m ρ)
  · refine (θ_run Cert.ReferenceIdeal.defs _ _).mono (fun r h c => ⟨(h c).1.trans ?_, (h c).2⟩)
      (Cert.ReferenceIdeal.Value.run (F := Ideal) m' ρ')
    have e := Ref.result m' c
    rw [(hagree c).1, (hagree c).2.1, (hagree c).2.2.1, (hagree c).2.2.2.1, (hagree c).2.2.2.2.1,
      (hagree c).2.2.2.2.2] at e
    rw [twoLayers_congr Host.layout Ref.layout same_gather same_scatter]
    exact e

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
